-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S2048x512 : Shape := ⟨2, ![2048, 512]⟩
abbrev S2048 : Shape := ⟨1, ![2048]⟩
abbrev S1x1024 : Shape := ⟨2, ![1, 1024]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S1x1024 .f32) (main_arg10 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S16384x1 .f32) (main_arg5 : FVec F S2048x512 .f32) (main_arg6 : FVec F S2048x512 .f32) (main_arg7 : FVec F S2048 .f32) (main_arg8 : FVec F S2048 .f32) (main_arg9 : FVec F S1x1024 .f32) (main_arg10 : FVec F S1 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x1 .f32) (main_arg5 : FVec F S2048x512 .f32) (main_arg6 : FVec F S2048x512 .f32) (main_arg7 : FVec F S2048 .f32) (main_arg8 : FVec F S2048 .f32) (main_arg9 : FVec F S1x1024 .f32) (main_arg10 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S16384x1 : Shape := ⟨2, ![16384, 1]⟩
abbrev S2048x512 : Shape := ⟨2, ![2048, 512]⟩
abbrev S2048 : Shape := ⟨1, ![2048]⟩
abbrev S1x1024 : Shape := ⟨2, ![1, 1024]⟩
abbrev S1 : Shape := ⟨1, ![1]⟩
abbrev S512x2048 : Shape := ⟨2, ![512, 2048]⟩
abbrev S1x512 : Shape := ⟨2, ![1, 512]⟩
abbrev S1x2048 : Shape := ⟨2, ![1, 2048]⟩
abbrev S1x1 : Shape := ⟨2, ![1, 1]⟩
abbrev S1024x512 : Shape := ⟨2, ![1024, 512]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 21
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S2048x512, .f32⟩
  | .hbm, ⟨6, _⟩ => ⟨S2048x512, .f32⟩
  | .hbm, ⟨7, _⟩ => ⟨S2048, .f32⟩
  | .hbm, ⟨8, _⟩ => ⟨S2048, .f32⟩
  | .hbm, ⟨9, _⟩ => ⟨S1x1024, .f32⟩
  | .hbm, ⟨10, _⟩ => ⟨S1, .f32⟩
  | .hbm, ⟨11, _⟩ => ⟨S512x2048, .f32⟩
  | .hbm, ⟨12, _⟩ => ⟨S512x2048, .f32⟩
  | .hbm, ⟨13, _⟩ => ⟨S1x512, .f32⟩
  | .hbm, ⟨14, _⟩ => ⟨S1x512, .f32⟩
  | .hbm, ⟨15, _⟩ => ⟨S1x2048, .f32⟩
  | .hbm, ⟨16, _⟩ => ⟨S1x2048, .f32⟩
  | .hbm, ⟨17, _⟩ => ⟨S1x1, .f32⟩
  | .hbm, ⟨18, _⟩ => ⟨S16384x512, .f32⟩
  | .hbm, ⟨19, _⟩ => ⟨S16384x512, .f32⟩
  | .hbm, ⟨20, _⟩ => ⟨S16384x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1, .f32⟩
  | .local _ .vmem, ⟨9, _⟩ => ⟨S1024x1, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S1x512, .f32⟩
  | .local _ .vmem, ⟨15, _⟩ => ⟨S1x512, .f32⟩
  | .local _ .vmem, ⟨16, _⟩ => ⟨S1x1, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x1, .f32⟩
  | .local _ .vmem, ⟨22, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S2048x512_S512x2048_1_0 : S2048x512.Transposes [1, 0] S512x2048
  slices_S1x1024_S1x512_0_0 : S1x1024.Slices ![0, 0] S1x512
  slices_S1x1024_S1x512_0_512 : S1x1024.Slices ![0, 512] S1x512
  shapeCasts_S2048_S1x2048 : S2048.ShapeCasts S1x2048
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x512 : S1024x2048.Slices ![0, 0] S1024x512
  slices_S1024x2048_o0_512_S1024x512 : S1024x2048.Slices ![0, 512] S1024x512
  slices_S1024x2048_o0_1024_S1024x512 : S1024x2048.Slices ![0, 1024] S1024x512
  slices_S1024x2048_o0_1536_S1024x512 : S1024x2048.Slices ![0, 1536] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .f32 = 32 ∨ (Rect.block (s := S512x2048) S512x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .f32 = 32 ∨ (Rect.block (s := S512x2048) S512x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S16384x512.size a
  hwx0_12 : ∀ i : grid0.Coords, EltTy.bits .f32 = 32 ∨ (Rect.block (s := S16384x512) S1024x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S16384x512.size a
  hwx0_13 : ∀ i : grid0.Coords, EltTy.bits .f32 = 32 ∨ (Rect.block (s := S16384x512) S1024x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S16384x1.size a
  hwx0_14 : ∀ i : grid0.Coords, EltTy.bits .f32 = 32 ∨ (Rect.block (s := S16384x1) S1024x1.size (cc0_transform_14 i) (hinb0_14 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7_0) S1024x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v7_1) S1024x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v7_2) S1024x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S2048x512 : Shape := ⟨2, ![2048, 512]⟩
abbrev S2048 : Shape := ⟨1, ![2048]⟩
abbrev S1x1024 : Shape := ⟨2, ![1, 1024]⟩
abbrev S1 : Shape := ⟨1, ![1]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩
abbrev S16384x1024 : Shape := ⟨2, ![16384, 1024]⟩
abbrev S1024x1 : Shape := ⟨2, ![1024, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S2048x512, .f32⟩
  | .hbm, ⟨6, _⟩ => ⟨S2048x512, .f32⟩
  | .hbm, ⟨7, _⟩ => ⟨S2048, .f32⟩
  | .hbm, ⟨8, _⟩ => ⟨S2048, .f32⟩
  | .hbm, ⟨9, _⟩ => ⟨S1x1024, .f32⟩
  | .hbm, ⟨10, _⟩ => ⟨S1, .f32⟩
  | .hbm, ⟨11, _⟩ => ⟨S16384x512, .f32⟩
  | .hbm, ⟨12, _⟩ => ⟨S16384x512, .f32⟩
  | .hbm, ⟨13, _⟩ => ⟨S512x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S512x2048, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x1024, .f32⟩
  | .hbm, ⟨59, _⟩ => ⟨S1024x1, .f32⟩
  | .hbm, ⟨60, _⟩ => ⟨S16384x1, .f32⟩
  | .hbm, ⟨61, _⟩ => ⟨S1x1, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S16384x1_S16384x512_0_1 : S16384x1.BroadcastsInDim S16384x512 (![0, 1] : Fin 2 → Fin S16384x512.rank)
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  concatenates_S16384x512_S16384x512_S16384x1024_d1 : Shape.Concatenates [S16384x512, S16384x512] S16384x1024 1
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x512_S512x2048_S16384x2048_1_0_0_1_n_n_wf : DotDims.WF S16384x512 S512x2048 S16384x2048 [1] [0] [0] [1] [] []
  dot_S16384x1024_S1024x1_S16384x1_1_0_0_1_n_n_wf : DotDims.WF S16384x1024 S1024x1 S16384x1 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.Spec.lean ====
/-
  An LSTM-style cell with a scalar read-out, on the extended reals, one batch row at a time.

  For one row: the input row x is scaled by the row's scalar pv; the 2048 gate pre-activations are
      gate j = ((sum_k (pv * x k) * wih k j + bih j) + sum_k hp k * whh k j) + bhh j,
  the weights being read as (input feature k, gate column j). The columns fall in four blocks of 512: input gate,
  forget gate, candidate, output gate. With sigma the logistic function,
      c' q = sigma (gate (512 + q)) * c q + sigma (gate q) * tanh (gate (1024 + q)),
      h' q = sigma (gate (1536 + q)) * tanh (c' q),
  and the read-out is sigma of a linear form in the row h and the new row h':
      p' = sigma ((sum_k h k * w1 k + sum_k h' k * w2 k) + b).
  The second half of the file reads these off whole argument arrays: row b of each batch array, the weight matrices
  stored as (gate column, input feature), the read-out weights stored as one row of 1024 whose first half acts on h
  and whose second half acts on h'.
-/
import Idealize.ShloMosaic.PureOps.Ideal
import Idealize.ShloMosaic.Lib.ValueIdx

noncomputable section

open scoped BigOperators

namespace Cert.Cell

open Idealize.ShloMosaic Idealize.ShloMosaic.ValueIdx

/-! ## One row -/

/-- Column q of the input-gate block. -/
abbrev colI (q : Fin 512) : Fin 2048 := ⟨q.val, by omega⟩
/-- Column q of the forget-gate block. -/
abbrev colF (q : Fin 512) : Fin 2048 := ⟨q.val + 512, by omega⟩
/-- Column q of the candidate block. -/
abbrev colG (q : Fin 512) : Fin 2048 := ⟨q.val + 1024, by omega⟩
/-- Column q of the output-gate block. -/
abbrev colO (q : Fin 512) : Fin 2048 := ⟨q.val + 1536, by omega⟩

/-- The row of gate pre-activations. -/
def gate (pv : EReal) (x hp : Fin 512 → EReal) (wih whh : Fin 512 → Fin 2048 → EReal) (bih bhh : Fin 2048 → EReal)
    (j : Fin 2048) : EReal :=
  (((∑ k : Fin 512, (pv * x k) * wih k j) + bih j) + ∑ k : Fin 512, hp k * whh k j) + bhh j

/-- The new cell row, from the gate row g and the old cell row c. -/
def cellNew (g : Fin 2048 → EReal) (c : Fin 512 → EReal) (q : Fin 512) : EReal :=
  Ideal.logistic (g (colF q)) * c q + Ideal.logistic (g (colI q)) * Ideal.tanh (g (colG q))

/-- The new hidden row. -/
def hidNew (g : Fin 2048 → EReal) (c : Fin 512 → EReal) (q : Fin 512) : EReal :=
  Ideal.logistic (g (colO q)) * Ideal.tanh (cellNew g c q)

/-- The read-out: the logistic function of a linear form in the row h (weights w1) and the new hidden row hn
    (weights w2), plus b. -/
def probNew (h hn w1 w2 : Fin 512 → EReal) (b : EReal) : EReal :=
  Ideal.logistic (((∑ k : Fin 512, h k * w1 k) + ∑ k : Fin 512, hn k * w2 k) + b)

/-! ## Read off whole arrays -/

/-- The eleven argument arrays. -/
structure Args where
  s : (⟨2, ![16384, 512]⟩ : Shape).Idx → EReal
  h : (⟨2, ![16384, 512]⟩ : Shape).Idx → EReal
  hp : (⟨2, ![16384, 512]⟩ : Shape).Idx → EReal
  cp : (⟨2, ![16384, 512]⟩ : Shape).Idx → EReal
  p : (⟨2, ![16384, 1]⟩ : Shape).Idx → EReal
  wih : (⟨2, ![2048, 512]⟩ : Shape).Idx → EReal
  whh : (⟨2, ![2048, 512]⟩ : Shape).Idx → EReal
  bih : (⟨1, ![2048]⟩ : Shape).Idx → EReal
  bhh : (⟨1, ![2048]⟩ : Shape).Idx → EReal
  w2 : (⟨2, ![1, 1024]⟩ : Shape).Idx → EReal
  b2 : (⟨1, ![1]⟩ : Shape).Idx → EReal

/-- Row b's gate pre-activations. -/
def gateOf (A : Args) (b : Fin 16384) : Fin 2048 → EReal :=
  gate (A.p (ix2 b (0 : Fin 1))) (fun k => A.s (ix2 b k)) (fun k => A.hp (ix2 b k))
    (fun k j => A.wih (ix2 j k)) (fun k j => A.whh (ix2 j k)) (fun j => A.bih (ix1 j)) (fun j => A.bhh (ix1 j))

/-- Entry (b, q) of the new cell state. -/
def cellAt (A : Args) (b : Fin 16384) (q : Fin 512) : EReal := cellNew (gateOf A b) (fun q => A.cp (ix2 b q)) q

/-- Entry (b, q) of the new hidden state. -/
def hidAt (A : Args) (b : Fin 16384) (q : Fin 512) : EReal := hidNew (gateOf A b) (fun q => A.cp (ix2 b q)) q

/-- Entry b of the read-out. -/
def probAt (A : Args) (b : Fin 16384) : EReal :=
  probNew (fun k => A.h (ix2 b k)) (hidAt A b) (fun k => A.w2 (ix2 (0 : Fin 1) (⟨k.val, by omega⟩ : Fin 1024)))
    (fun k => A.w2 (ix2 (0 : Fin 1) (⟨512 + k.val, by omega⟩ : Fin 1024))) (A.b2 (ix1 (0 : Fin 1)))

/-- The three result arrays. -/
def outH (A : Args) : (⟨2, ![16384, 512]⟩ : Shape).Idx → EReal := fun i => hidAt A (i 0) (i 1)
def outC (A : Args) : (⟨2, ![16384, 512]⟩ : Shape).Idx → EReal := fun i => cellAt A (i 0) (i 1)
def outP (A : Args) : (⟨2, ![16384, 1]⟩ : Shape).Idx → EReal := fun i => probAt A (i 0)

theorem outH_ix (A : Args) (b : Fin 16384) (q : Fin 512) : outH A (ix2 b q) = hidAt A b q := rfl
theorem outC_ix (A : Args) (b : Fin 16384) (q : Fin 512) : outC A (ix2 b q) = cellAt A b q := rfl
theorem outP_ix (A : Args) (b : Fin 16384) (u : Fin 1) : outP A (ix2 b u) = probAt A b := rfl

/-- The f32 word of 1.0 is the real 1. -/
theorem ofBits_one : Ideal.ofBits .f32 0x3F800000#32 = (1 : EReal) := by
  simp [Ideal.ofBits, Ideal.ieee, -EReal.coe_mul]; norm_num

/-- The logistic function as the host spells it: 1 / (1 + exp (-x)), the two ones as the f32 word of 1.0. -/
theorem logistic_spelt (x : EReal) :
    Ideal.div (Ideal.ofBits .f32 0x3F800000#32) (Ideal.ofBits .f32 0x3F800000#32 + Ideal.exp (-x)) = Ideal.logistic x := by
  rw [ofBits_one]; rfl

end Cert.Cell

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.KernelRow.lean ====
/-
  The body's arithmetic, read at an index of the block it stores.

  At a grid point the body holds 1024 batch rows. Row r of the 1024 x 2048 gate matrix it computes is the gate row of
  the cell: the first matrix product contracts the scaled input row (the row's scalar times the input row) with the
  input weights, the second the previous hidden row with the recurrent weights, and the two bias rows are spread over
  the rows. The new cell and hidden blocks read that matrix at four column offsets, 512 apart; the read-out block takes
  two lane sums, one of the row h against the first weight row and one of the new hidden row against the second.
-/
import proofs.«115608_j35150012350793_2_alg».proof.Proof.KernelIdealValue
import proofs.«115608_j35150012350793_2_alg».proof.Proof.Spec
import proofs.«115608_j35150012350793_2_alg».proof.Proof.LibMatmul
import proofs.«115608_j35150012350793_2_alg».proof.Proof.LibUnitAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRow

open Cert.KernelIdeal Cert.KernelIdeal.Gen Cert.KernelIdeal.ValueP Idealize.ShloMosaic Idealize.ShloMosaic.ValueIdx Cert.Cell Cert.Bridge Cert.Lib

/-- The body's two products contract the left operand's columns with the right operand's rows: the plain
    1024 x 512 by 512 x 2048 product. -/
theorem dot_plain : dot_S1024x512_S512x2048_S1024x2048_1_0_0_1_n_n = DotDims.plain 1024 512 2048 := rfl

/-- Row r, column j of the gate matrix: the cell's gate row over row r of the three batch blocks and the resident
    weights and bias rows. -/
theorem gate_at (P0 P1 : Vec Ideal S1024x512 .f32) (P2 : Vec Ideal S1024x1 .f32) (P3 : Vec Ideal S512x2048 .f32)
    (P4 : Vec Ideal S1x2048 .f32) (P5 : Vec Ideal S512x2048 .f32) (P6 : Vec Ideal S1x2048 .f32) (r : Fin 1024) (j : Fin 2048) :
    k0_pay2 (F := Ideal) P0 P1 P2 P3 P4 P5 P6 (ix2 r j)
      = gate (P2 (ix2 r (0 : Fin 1))) (fun k => P0 (ix2 r k)) (fun k => P1 (ix2 r k)) (fun k j => P3 (ix2 k j))
          (fun k j => P5 (ix2 k j)) (fun j => P4 (ix2 (0 : Fin 1) j)) (fun j => P6 (ix2 (0 : Fin 1) j)) j := by
  unfold k0_pay2 gate
  dsimp only
  simp only [matmul]
  rw [addf_apply, addf_apply, addf_apply, dot_plain, LibMatmul.matmul_zero_apply, LibMatmul.matmul_zero_apply,
    broadcastTo_1b_ab_apply, broadcastTo_1b_ab_apply, shapeCast_self, shapeCast_self, shapeCast_self, shapeCast_self]
  refine congrArg₂ (· + ·) (congrArg₂ (· + ·) (congrArg₂ (· + ·) (Finset.sum_congr rfl fun k _ => ?_) rfl) rfl) rfl
  rw [mulf_apply, UnitAxis.broadcastTo_a1_ab_apply]

/-- Pointwise functions of a block, read at an index. -/
theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-- A 512-column slice of the gate matrix starting at column o reads, at (r, q), the matrix at (r, q + o). -/
theorem slice_at (x : FVec Ideal S1024x2048 .f32) (o : Nat) (ho : o + 512 ≤ 2048)
    (h : S1024x2048.Slices ![0, o] S1024x512) (r : Fin 1024) (q : Fin 512) :
    extractStridedSlice S1024x512 ![0, o] x h (ix2 r q) = x (ix2 r (⟨q.val + o, by omega⟩ : Fin 2048)) :=
  extractStridedSlice_apply ![0, o] x h (ix2 r q) (ix2 r (⟨q.val + o, by omega⟩ : Fin 2048)) (fun a => by
    match a with
    | ⟨0, _⟩ => exact (Nat.zero_add _).symm
    | ⟨1, _⟩ => exact Nat.add_comm _ _)

/-- Entry (r, q) of the new cell block: the cell update over the gate row and row r of the old cell block. -/
theorem cellTree_at (P0 P1 P7 : Vec Ideal S1024x512 .f32) (P2 : Vec Ideal S1024x1 .f32) (P3 : Vec Ideal S512x2048 .f32)
    (P4 : Vec Ideal S1x2048 .f32) (P5 : Vec Ideal S512x2048 .f32) (P6 : Vec Ideal S1x2048 .f32) (r : Fin 1024) (q : Fin 512) :
    k0_pay3 (F := Ideal) P0 P1 P7 P2 P3 P4 P5 P6 (ix2 r q)
      = cellNew (fun j => k0_pay2 (F := Ideal) P0 P1 P2 P3 P4 P5 P6 (ix2 r j)) (fun q => P7 (ix2 r q)) q := by
  unfold k0_pay3 cellNew
  dsimp only
  rw [addf_apply, mulf_apply, mulf_apply, logistic_at, logistic_at, tanh_at,
    slice_at _ 512 (by omega), slice_at _ 0 (by omega), slice_at _ 1024 (by omega)]
  rfl

/-- Entry (r, q) of the new hidden block. -/
theorem hidTree_at (P0 P1 P7 : Vec Ideal S1024x512 .f32) (P2 : Vec Ideal S1024x1 .f32) (P3 : Vec Ideal S512x2048 .f32)
    (P4 : Vec Ideal S1x2048 .f32) (P5 : Vec Ideal S512x2048 .f32) (P6 : Vec Ideal S1x2048 .f32) (r : Fin 1024) (q : Fin 512) :
    k0_pay4 (F := Ideal) P0 P1 P7 P2 P3 P4 P5 P6 (ix2 r q)
      = hidNew (fun j => k0_pay2 (F := Ideal) P0 P1 P2 P3 P4 P5 P6 (ix2 r j)) (fun q => P7 (ix2 r q)) q := by
  unfold k0_pay4 hidNew
  dsimp only
  rw [mulf_apply, logistic_at, tanh_at, slice_at _ 1536 (by omega), cellTree_at]

/-- A lane sum of a 1024 x 512 block, read at row r: the sum over the row. -/
theorem laneSum_at (src : FVec Ideal S1024x512 .f32) (h : S1024x512.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ k : Fin 512, src (ix2 r k) := by
  refine (Ideal.multiReduction_add_single src _ h hφ hacc (ix1 r)).trans ?_
  show ∑ k : Fin 512, src (h.lift (ix1 r) k) = _
  refine Finset.sum_congr rfl fun k _ => congrArg src ?_
  funext a
  refine Fin.ext ?_
  match a with
  | ⟨0, _⟩ => rfl
  | ⟨1, _⟩ => rfl

/-- Entry (r, u) of the read-out block, for any new-hidden block HN: the read-out of row r of the block Ph, row r of
    HN, the two weight rows and the bias. -/
theorem prob_at (Ph : Vec Ideal S1024x512 .f32) (HN : FVec Ideal S1024x512 .f32) (W1 : FVec Ideal S1x512 .f32)
    (W2 : Vec Ideal S1x512 .f32) (Bb : Vec Ideal S1x1 .f32) (r : Fin 1024) (u : Fin 1) :
    k0_pay1 (F := Ideal) Ph HN W1 W2 Bb (ix2 r u)
      = probNew (fun k => Ph (ix2 r k)) (fun k => HN (ix2 r k)) (fun k => W1 (ix2 (0 : Fin 1) k))
          (fun k => W2 (ix2 (0 : Fin 1) k)) (Bb (ix2 (0 : Fin 1) (0 : Fin 1))) := by
  have hu : u = 0 := Subsingleton.elim _ _
  subst hu
  unfold k0_pay1 probNew
  dsimp only
  rw [logistic_at, addf_apply, addf_apply, UnitAxis.shapeCast_a_a1_apply, UnitAxis.shapeCast_a_a1_apply,
    broadcastTo_1b_ab_apply, shapeCast_self, shapeCast_self]
  refine congrArg Ideal.logistic (congrArg₂ (· + ·) (congrArg₂ (· + ·) ?_ ?_) rfl)
  · refine (laneSum_at _ _ _ _ r).trans (Finset.sum_congr rfl fun k _ => ?_)
    rw [mulf_apply, broadcastTo_1b_ab_apply]
  · refine (laneSum_at _ _ _ _ r).trans (Finset.sum_congr rfl fun k _ => ?_)
    rw [mulf_apply, broadcastTo_1b_ab_apply]

end Cert.KernelRow

end
-- ==== Proof.HostReads.lean ====
/-
  The arrays the region stages that are not arguments themselves, read at an index.

  Before the region the program transposes the two weight matrices (stored as gate column by input feature) so that
  the body multiplies without transposing, views each bias vector as one row, cuts the read-out weight row of 1024 in
  its two halves of 512, and views the read-out bias as a 1 x 1 matrix. Entry (k, j) of a transposed weight matrix
  is the argument's entry (j, k); entry (0, j) of a bias row is the vector's entry j; entry (0, k) of the first half
  is the weight row's entry k, of the second half its entry 512 + k.
-/
import proofs.«115608_j35150012350793_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelArr

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The input weights as staged: the argument transposed. -/
theorem V_wih (c : Dev nD) : (V m c main_v0 : S512x2048.Idx → EReal)
    = transpose S512x2048 [1, 0] (m ((c : Thread nD τ).loc main_arg5)) transposes_S2048x512_S512x2048_1_0 := by
  dsimp only [Gen.V, Gen.hostOps0]; after_results

/-- The recurrent weights as staged: the argument transposed. -/
theorem V_whh (c : Dev nD) : (V m c main_v1 : S512x2048.Idx → EReal)
    = transpose S512x2048 [1, 0] (m ((c : Thread nD τ).loc main_arg6)) transposes_S2048x512_S512x2048_1_0 := by
  dsimp only [Gen.V, Gen.hostOps0]; after_results

/-- The first half of the read-out weight row. -/
theorem V_w1 (c : Dev nD) : (V m c main_v2 : S1x512.Idx → EReal)
    = extractStridedSlice S1x512 ![0, 0] (m ((c : Thread nD τ).loc main_arg9)) slices_S1x1024_S1x512_0_0 := by
  dsimp only [Gen.V, Gen.hostOps0]; after_results

/-- The second half of the read-out weight row. -/
theorem V_w2 (c : Dev nD) : (V m c main_v3 : S1x512.Idx → EReal)
    = extractStridedSlice S1x512 ![0, 512] (m ((c : Thread nD τ).loc main_arg9)) slices_S1x1024_S1x512_0_512 := by
  dsimp only [Gen.V, Gen.hostOps0]; after_results

/-- The input bias as one row. -/
theorem V_bih (c : Dev nD) : (V m c main_v4 : S1x2048.Idx → EReal)
    = shapeCast S1x2048 (m ((c : Thread nD τ).loc main_arg7)) shapeCasts_S2048_S1x2048 := by
  dsimp only [Gen.V, Gen.hostOps0]; after_results; rfl

/-- The recurrent bias as one row. -/
theorem V_bhh (c : Dev nD) : (V m c main_v5 : S1x2048.Idx → EReal)
    = shapeCast S1x2048 (m ((c : Thread nD τ).loc main_arg8)) shapeCasts_S2048_S1x2048 := by
  dsimp only [Gen.V, Gen.hostOps0]; after_results; rfl

/-- The read-out bias as a 1 x 1 matrix. -/
theorem V_b2 (c : Dev nD) : (V m c main_v6 : S1x1.Idx → EReal)
    = shapeCast S1x1 (m ((c : Thread nD τ).loc main_arg10)) shapeCasts_S1_S1x1 := by
  dsimp only [Gen.V, Gen.hostOps0]; after_results; rfl

/-! ## At an index -/

theorem wih_at (c : Dev nD) (k : Fin 512) (j : Fin 2048) :
    V m c main_v0 (ix2 k j) = m ((c : Thread nD τ).loc main_arg5) (ix2 j k) := by
  rw [V_wih]; exact transpose_ix2_apply _ _ k j

theorem whh_at (c : Dev nD) (k : Fin 512) (j : Fin 2048) :
    V m c main_v1 (ix2 k j) = m ((c : Thread nD τ).loc main_arg6) (ix2 j k) := by
  rw [V_whh]; exact transpose_ix2_apply _ _ k j

theorem w1_at (c : Dev nD) (k : Fin 512) :
    V m c main_v2 (ix2 (0 : Fin 1) k) = m ((c : Thread nD τ).loc main_arg9) (ix2 (0 : Fin 1) (⟨k.val, by omega⟩ : Fin 1024)) := by
  rw [V_w1]; exact slice2_axis1_apply 0 _ _ (0 : Fin 1) k _ (Nat.zero_add _).symm

theorem w2_at (c : Dev nD) (k : Fin 512) :
    V m c main_v3 (ix2 (0 : Fin 1) k) = m ((c : Thread nD τ).loc main_arg9) (ix2 (0 : Fin 1) (⟨512 + k.val, by omega⟩ : Fin 1024)) := by
  rw [V_w2]; exact slice2_axis1_apply 512 _ _ (0 : Fin 1) k _ rfl

theorem bih_at (c : Dev nD) (j : Fin 2048) :
    V m c main_v4 (ix2 (0 : Fin 1) j) = m ((c : Thread nD τ).loc main_arg7) (ix1 j) := by
  rw [V_bih]; exact shapeCast_a_1a_apply _ _ (0 : Fin 1) j

theorem bhh_at (c : Dev nD) (j : Fin 2048) :
    V m c main_v5 (ix2 (0 : Fin 1) j) = m ((c : Thread nD τ).loc main_arg8) (ix1 j) := by
  rw [V_bhh]; exact shapeCast_a_1a_apply _ _ (0 : Fin 1) j

theorem b2_at (c : Dev nD) :
    V m c main_v6 (ix2 (0 : Fin 1) (0 : Fin 1)) = m ((c : Thread nD τ).loc main_arg10) (ix1 (0 : Fin 1)) := by
  rw [V_b2]; exact shapeCast_a_1a_apply _ _ (0 : Fin 1) (0 : Fin 1)

end Cert.KernelArr

end
-- ==== Proof.KernelArr.lean ====
/-
  From what each grid point writes to the three result arrays.

  The grid has 16 points. Point t stages rows 1024 t .. 1024 t + 1023 of the five batch arrays and of the three results,
  and the whole of the seven resident operands. So row r of a batch block at point t is batch row 1024 t + r of the
  argument, and a resident block is the staged array itself, which the reads of the arrays prepared before the region turn
  into the arguments: the body's gate row, new cell row, new hidden row and read-out at block row r are the cell's at batch
  row 1024 t + r of the arguments. The result blocks tile their arrays (row i0 lies in the block of point i0 / 1024), so
  each result array ends as the cell's function of the eleven arguments.
-/
import proofs.«115608_j35150012350793_2_alg».proof.Proof.KernelIdealValue
import proofs.«115608_j35150012350793_2_alg».proof.Proof.KernelRow
import proofs.«115608_j35150012350793_2_alg».proof.Proof.HostReads
import proofs.«115608_j35150012350793_2_alg».proof.Proof.Spec
import Idealize.ShloMosaic.Lib.Pipeline.Value
import Idealize.ShloMosaic.Lib.ValueIdx

noncomputable section

open scoped BigOperators

namespace Cert.KernelArr

open Cert.KernelIdeal Cert.KernelIdeal.Gen Idealize.ShloMosaic Idealize.ShloMosaic.TcCoe Idealize.SL.Sem Idealize.ShloMosaic.ValueIdx
open Idealize.ShloMosaic.Pipeline (Dat)
open Cert.Cell Cert.KernelRow

variable (m : (ℓ : Loc nD τ sig) → Buf (Elt Ideal) ℓ) (ρ : Dev nD → PrngReg)

/-- The eleven arguments of a device, bundled. -/
def args (c : Dev nD) : Cell.Args where
  s := m ((c : Thread nD τ).loc main_arg0)
  h := m ((c : Thread nD τ).loc main_arg1)
  hp := m ((c : Thread nD τ).loc main_arg2)
  cp := m ((c : Thread nD τ).loc main_arg3)
  p := m ((c : Thread nD τ).loc main_arg4)
  wih := m ((c : Thread nD τ).loc main_arg5)
  whh := m ((c : Thread nD τ).loc main_arg6)
  bih := m ((c : Thread nD τ).loc main_arg7)
  bhh := m ((c : Thread nD τ).loc main_arg8)
  w2 := m ((c : Thread nD τ).loc main_arg9)
  b2 := m ((c : Thread nD τ).loc main_arg10)

theorem hz : (![0, 0] : Fin 2 → Nat) = fun _ => 0 := funext fun a => by fin_cases a <;> rfl

theorem lt16 (t : Fin cfg0.N) : t.val < 16 := Nat.lt_of_lt_of_eq t.isLt N_0

/-- The batch row under block row r at point t. -/
def grow (t : Fin cfg0.N) (r : Fin 1024) : Fin 16384 := ⟨t.val * 1024 + r.val, by have := lt16 t; omega⟩

/-- The batch windows and the result windows move with the point along the rows; decided over the 16 points. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The resident windows stay at the origin; decided over the 16 points. -/
theorem idx_fixed : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The input blocks, read at an index -/

/-- Row r of the block of s at point t. -/
theorem rd_s (c : Dev nD) (t : Fin cfg0.N) (r : Fin 1024) (k : Fin 512) :
    iblk m c 0 t (ix2 r k) = m ((c : Thread nD τ).loc main_arg0) (ix2 (grow t r) k) := by
  show V m c main_arg0 (((cfg0.win 0).blk t).view.emb (ix2 r k)) = _
  rw [V_main_arg0 m c]
  refine congrArg (m ((c : Thread nD τ).loc main_arg0)) ?_
  obtain ⟨a0, b0, a1, b1, a2, b2, a3, b3, a4, b4, a12, b12, a13, b13, a14, b14⟩ := idx_moving t
  funext a
  refine Fin.ext ?_
  match a with
  | ⟨0, _⟩ => show win0_0.index t (0 : Fin 2) * 1024 + 1 * r.val = t.val * 1024 + r.val; omega
  | ⟨1, _⟩ => show win0_0.index t (1 : Fin 2) * 512 + 1 * k.val = k.val; omega

/-- Row r of the block of h. -/
theorem rd_h (c : Dev nD) (t : Fin cfg0.N) (r : Fin 1024) (k : Fin 512) :
    iblk m c 1 t (ix2 r k) = m ((c : Thread nD τ).loc main_arg1) (ix2 (grow t r) k) := by
  show V m c main_arg1 (((cfg0.win 1).blk t).view.emb (ix2 r k)) = _
  rw [V_main_arg1 m c]
  refine congrArg (m ((c : Thread nD τ).loc main_arg1)) ?_
  obtain ⟨a0, b0, a1, b1, a2, b2, a3, b3, a4, b4, a12, b12, a13, b13, a14, b14⟩ := idx_moving t
  funext a
  refine Fin.ext ?_
  match a with
  | ⟨0, _⟩ => show win0_1.index t (0 : Fin 2) * 1024 + 1 * r.val = t.val * 1024 + r.val; omega
  | ⟨1, _⟩ => show win0_1.index t (1 : Fin 2) * 512 + 1 * k.val = k.val; omega

/-- Row r of the block of the previous hidden state. -/
theorem rd_hp (c : Dev nD) (t : Fin cfg0.N) (r : Fin 1024) (k : Fin 512) :
    iblk m c 2 t (ix2 r k) = m ((c : Thread nD τ).loc main_arg2) (ix2 (grow t r) k) := by
  show V m c main_arg2 (((cfg0.win 2).blk t).view.emb (ix2 r k)) = _
  rw [V_main_arg2 m c]
  refine congrArg (m ((c : Thread nD τ).loc main_arg2)) ?_
  obtain ⟨a0, b0, a1, b1, a2, b2, a3, b3, a4, b4, a12, b12, a13, b13, a14, b14⟩ := idx_moving t
  funext a
  refine Fin.ext ?_
  match a with
  | ⟨0, _⟩ => show win0_2.index t (0 : Fin 2) * 1024 + 1 * r.val = t.val * 1024 + r.val; omega
  | ⟨1, _⟩ => show win0_2.index t (1 : Fin 2) * 512 + 1 * k.val = k.val; omega

/-- Row r of the block of the previous cell state. -/
theorem rd_cp (c : Dev nD) (t : Fin cfg0.N) (r : Fin 1024) (k : Fin 512) :
    iblk m c 3 t (ix2 r k) = m ((c : Thread nD τ).loc main_arg3) (ix2 (grow t r) k) := by
  show V m c main_arg3 (((cfg0.win 3).blk t).view.emb (ix2 r k)) = _
  rw [V_main_arg3 m c]
  refine congrArg (m ((c : Thread nD τ).loc main_arg3)) ?_
  obtain ⟨a0, b0, a1, b1, a2, b2, a3, b3, a4, b4, a12, b12, a13, b13, a14, b14⟩ := idx_moving t
  funext a
  refine Fin.ext ?_
  match a with
  | ⟨0, _⟩ => show win0_3.index t (0 : Fin 2) * 1024 + 1 * r.val = t.val * 1024 + r.val; omega
  | ⟨1, _⟩ => show win0_3.index t (1 : Fin 2) * 512 + 1 * k.val = k.val; omega

/-- Row r of the block of the row scalars. -/
theorem rd_p (c : Dev nD) (t : Fin cfg0.N) (r : Fin 1024) (k : Fin 1) :
    iblk m c 4 t (ix2 r k) = m ((c : Thread nD τ).loc main_arg4) (ix2 (grow t r) k) := by
  show V m c main_arg4 (((cfg0.win 4).blk t).view.emb (ix2 r k)) = _
  rw [V_main_arg4 m c]
  refine congrArg (m ((c : Thread nD τ).loc main_arg4)) ?_
  obtain ⟨a0, b0, a1, b1, a2, b2, a3, b3, a4, b4, a12, b12, a13, b13, a14, b14⟩ := idx_moving t
  funext a
  refine Fin.ext ?_
  match a with
  | ⟨0, _⟩ => show win0_4.index t (0 : Fin 2) * 1024 + 1 * r.val = t.val * 1024 + r.val; omega
  | ⟨1, _⟩ => show win0_4.index t (1 : Fin 2) * 1 + 1 * k.val = k.val; omega

/-- The staged input weights at (k, j): the argument at (j, k). -/
theorem rd_wih (c : Dev nD) (t : Fin cfg0.N) (k : Fin 512) (j : Fin 2048) :
    iblk m c 5 t (ix2 k j) = m ((c : Thread nD τ).loc main_arg5) (ix2 j k) := by
  show V m c main_v0 (((cfg0.win 5).blk t).view.emb (ix2 k j)) = _
  refine (congrArg (V m c main_v0) ?_).trans (wih_at m c k j)
  obtain ⟨a5, b5, a6, b6, a7, b7, a8, b8, a9, b9, a10, b10, a11, b11⟩ := idx_fixed t
  funext a
  refine Fin.ext ?_
  match a with
  | ⟨0, _⟩ => show win0_5.index t (0 : Fin 2) * 512 + 1 * k.val = k.val; omega
  | ⟨1, _⟩ => show win0_5.index t (1 : Fin 2) * 2048 + 1 * j.val = j.val; omega

/-- The staged recurrent weights at (k, j): the argument at (j, k). -/
theorem rd_whh (c : Dev nD) (t : Fin cfg0.N) (k : Fin 512) (j : Fin 2048) :
    iblk m c 6 t (ix2 k j) = m ((c : Thread nD τ).loc main_arg6) (ix2 j k) := by
  show V m c main_v1 (((cfg0.win 6).blk t).view.emb (ix2 k j)) = _
  refine (congrArg (V m c main_v1) ?_).trans (whh_at m c k j)
  obtain ⟨a5, b5, a6, b6, a7, b7, a8, b8, a9, b9, a10, b10, a11, b11⟩ := idx_fixed t
  funext a
  refine Fin.ext ?_
  match a with
  | ⟨0, _⟩ => show win0_6.index t (0 : Fin 2) * 512 + 1 * k.val = k.val; omega
  | ⟨1, _⟩ => show win0_6.index t (1 : Fin 2) * 2048 + 1 * j.val = j.val; omega

/-- The input bias row. -/
theorem rd_bih (c : Dev nD) (t : Fin cfg0.N) (k : Fin 2048) :
    iblk m c 7 t (ix2 (0 : Fin 1) k) = m ((c : Thread nD τ).loc main_arg7) (ix1 k) := by
  show V m c main_v4 (((cfg0.win 7).blk t).view.emb (ix2 (0 : Fin 1) k)) = _
  refine (congrArg (V m c main_v4) ?_).trans (bih_at m c k)
  obtain ⟨a5, b5, a6, b6, a7, b7, a8, b8, a9, b9, a10, b10, a11, b11⟩ := idx_fixed t
  funext a
  refine Fin.ext ?_
  match a with
  | ⟨0, _⟩ => show win0_7.index t (0 : Fin 2) * 1 + 1 * (0 : Fin 1).val = (0 : Fin 1).val; omega
  | ⟨1, _⟩ => show win0_7.index t (1 : Fin 2) * 2048 + 1 * k.val = k.val; omega

/-- The recurrent bias row. -/
theorem rd_bhh (c : Dev nD) (t : Fin cfg0.N) (k : Fin 2048) :
    iblk m c 8 t (ix2 (0 : Fin 1) k) = m ((c : Thread nD τ).loc main_arg8) (ix1 k) := by
  show V m c main_v5 (((cfg0.win 8).blk t).view.emb (ix2 (0 : Fin 1) k)) = _
  refine (congrArg (V m c main_v5) ?_).trans (bhh_at m c k)
  obtain ⟨a5, b5, a6, b6, a7, b7, a8, b8, a9, b9, a10, b10, a11, b11⟩ := idx_fixed t
  funext a
  refine Fin.ext ?_
  match a with
  | ⟨0, _⟩ => show win0_8.index t (0 : Fin 2) * 1 + 1 * (0 : Fin 1).val = (0 : Fin 1).val; omega
  | ⟨1, _⟩ => show win0_8.index t (1 : Fin 2) * 2048 + 1 * k.val = k.val; omega

/-- The first half of the read-out weights. -/
theorem rd_w1 (c : Dev nD) (t : Fin cfg0.N) (k : Fin 512) :
    iblk m c 9 t (ix2 (0 : Fin 1) k) = m ((c : Thread nD τ).loc main_arg9) (ix2 (0 : Fin 1) (⟨k.val, by omega⟩ : Fin 1024)) := by
  show V m c main_v2 (((cfg0.win 9).blk t).view.emb (ix2 (0 : Fin 1) k)) = _
  refine (congrArg (V m c main_v2) ?_).trans (w1_at m c k)
  obtain ⟨a5, b5, a6, b6, a7, b7, a8, b8, a9, b9, a10, b10, a11, b11⟩ := idx_fixed t
  funext a
  refine Fin.ext ?_
  match a with
  | ⟨0, _⟩ => show win0_9.index t (0 : Fin 2) * 1 + 1 * (0 : Fin 1).val = (0 : Fin 1).val; omega
  | ⟨1, _⟩ => show win0_9.index t (1 : Fin 2) * 512 + 1 * k.val = k.val; omega

/-- The second half of the read-out weights. -/
theorem rd_w2 (c : Dev nD) (t : Fin cfg0.N) (k : Fin 512) :
    iblk m c 10 t (ix2 (0 : Fin 1) k) = m ((c : Thread nD τ).loc main_arg9) (ix2 (0 : Fin 1) (⟨512 + k.val, by omega⟩ : Fin 1024)) := by
  show V m c main_v3 (((cfg0.win 10).blk t).view.emb (ix2 (0 : Fin 1) k)) = _
  refine (congrArg (V m c main_v3) ?_).trans (w2_at m c k)
  obtain ⟨a5, b5, a6, b6, a7, b7, a8, b8, a9, b9, a10, b10, a11, b11⟩ := idx_fixed t
  funext a
  refine Fin.ext ?_
  match a with
  | ⟨0, _⟩ => show win0_10.index t (0 : Fin 2) * 1 + 1 * (0 : Fin 1).val = (0 : Fin 1).val; omega
  | ⟨1, _⟩ => show win0_10.index t (1 : Fin 2) * 512 + 1 * k.val = k.val; omega

/-- The read-out bias. -/
theorem rd_b2 (c : Dev nD) (t : Fin cfg0.N) :
    iblk m c 11 t (ix2 (0 : Fin 1) (0 : Fin 1)) = m ((c : Thread nD τ).loc main_arg10) (ix1 (0 : Fin 1)) := by
  show V m c main_v6 (((cfg0.win 11).blk t).view.emb (ix2 (0 : Fin 1) (0 : Fin 1))) = _
  refine (congrArg (V m c main_v6) ?_).trans (b2_at m c)
  obtain ⟨a5, b5, a6, b6, a7, b7, a8, b8, a9, b9, a10, b10, a11, b11⟩ := idx_fixed t
  funext a
  refine Fin.ext ?_
  match a with
  | ⟨0, _⟩ => show win0_11.index t (0 : Fin 2) * 1 + 1 * (0 : Fin 1).val = (0 : Fin 1).val; omega
  | ⟨1, _⟩ => show win0_11.index t (1 : Fin 2) * 1 + 1 * (0 : Fin 1).val = (0 : Fin 1).val; omega

/-! ## The result blocks' places in their arrays -/

theorem emb_out12 (t : Fin cfg0.N) (r : Fin 1024) (q : Fin 512) :
    ((cfg0.win 12).blk t).view.emb (ix2 r q) = ix2 (grow t r) q := by
  obtain ⟨a0, b0, a1, b1, a2, b2, a3, b3, a4, b4, a12, b12, a13, b13, a14, b14⟩ := idx_moving t
  funext a
  refine Fin.ext ?_
  match a with
  | ⟨0, _⟩ => show win0_12.index t (0 : Fin 2) * 1024 + 1 * r.val = t.val * 1024 + r.val; omega
  | ⟨1, _⟩ => show win0_12.index t (1 : Fin 2) * 512 + 1 * q.val = q.val; omega

theorem emb_out13 (t : Fin cfg0.N) (r : Fin 1024) (q : Fin 512) :
    ((cfg0.win 13).blk t).view.emb (ix2 r q) = ix2 (grow t r) q := by
  obtain ⟨a0, b0, a1, b1, a2, b2, a3, b3, a4, b4, a12, b12, a13, b13, a14, b14⟩ := idx_moving t
  funext a
  refine Fin.ext ?_
  match a with
  | ⟨0, _⟩ => show win0_13.index t (0 : Fin 2) * 1024 + 1 * r.val = t.val * 1024 + r.val; omega
  | ⟨1, _⟩ => show win0_13.index t (1 : Fin 2) * 512 + 1 * q.val = q.val; omega

theorem emb_out14 (t : Fin cfg0.N) (r : Fin 1024) (q : Fin 1) :
    ((cfg0.win 14).blk t).view.emb (ix2 r q) = ix2 (grow t r) q := by
  obtain ⟨a0, b0, a1, b1, a2, b2, a3, b3, a4, b4, a12, b12, a13, b13, a14, b14⟩ := idx_moving t
  funext a
  refine Fin.ext ?_
  match a with
  | ⟨0, _⟩ => show win0_14.index t (0 : Fin 2) * 1024 + 1 * r.val = t.val * 1024 + r.val; omega
  | ⟨1, _⟩ => show win0_14.index t (1 : Fin 2) * 1 + 1 * q.val = q.val; omega

/-! ## The body's rows are the cell's rows of the arguments -/

/-- The gate row of block row r at point t is the cell's gate row at batch row 1024 t + r. -/
theorem gate_blk (c : Dev nD) (t : Fin cfg0.N) (r : Fin 1024) :
    (fun j => k0_pay2 (F := Ideal) (iblk m c 0 t) (iblk m c 2 t) (iblk m c 4 t) (iblk m c 5 t) (iblk m c 7 t) (iblk m c 6 t) (iblk m c 8 t) (ix2 r j)) = gateOf (args m c) (grow t r) := by
  funext j
  refine (gate_at (iblk m c 0 t) (iblk m c 2 t) (iblk m c 4 t) (iblk m c 5 t) (iblk m c 7 t) (iblk m c 6 t) (iblk m c 8 t) r j).trans ?_
  simp only [rd_s, rd_hp, rd_p, rd_wih, rd_whh, rd_bih, rd_bhh]
  rfl

/-- The new cell row. -/
theorem cell_blk (c : Dev nD) (t : Fin cfg0.N) (r : Fin 1024) :
    (fun q => k0_pay3 (F := Ideal) (iblk m c 0 t) (iblk m c 2 t) (iblk m c 3 t) (iblk m c 4 t) (iblk m c 5 t) (iblk m c 7 t) (iblk m c 6 t) (iblk m c 8 t) (ix2 r q)) = cellAt (args m c) (grow t r) := by
  funext q
  refine (cellTree_at (iblk m c 0 t) (iblk m c 2 t) (iblk m c 3 t) (iblk m c 4 t) (iblk m c 5 t) (iblk m c 7 t) (iblk m c 6 t) (iblk m c 8 t) r q).trans ?_
  rw [gate_blk m c t r]
  simp only [rd_cp]
  rfl

/-- The new hidden row. -/
theorem hid_blk (c : Dev nD) (t : Fin cfg0.N) (r : Fin 1024) :
    (fun q => k0_pay4 (F := Ideal) (iblk m c 0 t) (iblk m c 2 t) (iblk m c 3 t) (iblk m c 4 t) (iblk m c 5 t) (iblk m c 7 t) (iblk m c 6 t) (iblk m c 8 t) (ix2 r q)) = hidAt (args m c) (grow t r) := by
  funext q
  refine (hidTree_at (iblk m c 0 t) (iblk m c 2 t) (iblk m c 3 t) (iblk m c 4 t) (iblk m c 5 t) (iblk m c 7 t) (iblk m c 6 t) (iblk m c 8 t) r q).trans ?_
  rw [gate_blk m c t r]
  simp only [rd_cp]
  rfl

/-! ## What each point writes back -/

/-- Point t writes block t of the new hidden state. -/
theorem flushedH (c : Dev nD) (t : Fin cfg0.N) :
    (dats m 0 c).flushed 12 t = ((cfg0.win 12).blk t).view.read (Elt Ideal) (outH (args m c)) := by
  rw [ValueP.flushed12]
  unfold out0_12
  rw [View.canon_unit_zero hz]
  simp only [View.ld_unit_zero (S := S1024x512) hz, View.ld_unit_zero (S := S1024x1) hz, View.ld_unit_zero (S := S512x2048) hz, View.ld_unit_zero (S := S1x2048) hz, View.ld_unit_zero (S := S1x512) hz, View.ld_unit_zero (S := S1x1) hz]
  funext j
  obtain ⟨r, q, rfl⟩ : ∃ (r : Fin 1024) (q : Fin 512), j = ix2 r q := ⟨j 0, j 1, eq_ix2 j⟩
  show k0_pay4 (F := Ideal) (iblk m c 0 t) (iblk m c 2 t) (iblk m c 3 t) (iblk m c 4 t) (iblk m c 5 t) (iblk m c 7 t) (iblk m c 6 t) (iblk m c 8 t) (ix2 r q) = outH (args m c) (((cfg0.win 12).blk t).view.emb (ix2 r q))
  rw [emb_out12, outH_ix]
  exact congrFun (hid_blk m c t r) q

/-- Point t writes block t of the new cell state. -/
theorem flushedC (c : Dev nD) (t : Fin cfg0.N) :
    (dats m 0 c).flushed 13 t = ((cfg0.win 13).blk t).view.read (Elt Ideal) (outC (args m c)) := by
  rw [ValueP.flushed13]
  unfold out0_13
  rw [View.canon_unit_zero hz]
  simp only [View.ld_unit_zero (S := S1024x512) hz, View.ld_unit_zero (S := S1024x1) hz, View.ld_unit_zero (S := S512x2048) hz, View.ld_unit_zero (S := S1x2048) hz, View.ld_unit_zero (S := S1x512) hz, View.ld_unit_zero (S := S1x1) hz]
  funext j
  obtain ⟨r, q, rfl⟩ : ∃ (r : Fin 1024) (q : Fin 512), j = ix2 r q := ⟨j 0, j 1, eq_ix2 j⟩
  show k0_pay3 (F := Ideal) (iblk m c 0 t) (iblk m c 2 t) (iblk m c 3 t) (iblk m c 4 t) (iblk m c 5 t) (iblk m c 7 t) (iblk m c 6 t) (iblk m c 8 t) (ix2 r q) = outC (args m c) (((cfg0.win 13).blk t).view.emb (ix2 r q))
  rw [emb_out13, outC_ix]
  exact congrFun (cell_blk m c t r) q

/-- Point t writes block t of the read-out. -/
theorem flushedP (c : Dev nD) (t : Fin cfg0.N) :
    (dats m 0 c).flushed 14 t = ((cfg0.win 14).blk t).view.read (Elt Ideal) (outP (args m c)) := by
  rw [ValueP.flushed14]
  unfold out0_14
  rw [View.canon_unit_zero hz]
  simp only [View.ld_unit_zero (S := S1024x512) hz, View.ld_unit_zero (S := S1024x1) hz, View.ld_unit_zero (S := S512x2048) hz, View.ld_unit_zero (S := S1x2048) hz, View.ld_unit_zero (S := S1x512) hz, View.ld_unit_zero (S := S1x1) hz]
  funext j
  obtain ⟨r, u, rfl⟩ : ∃ (r : Fin 1024) (u : Fin 1), j = ix2 r u := ⟨j 0, j 1, eq_ix2 j⟩
  show k0_pay1 (F := Ideal) (iblk m c 1 t) (k0_pay4 (F := Ideal) (iblk m c 0 t) (iblk m c 2 t) (iblk m c 3 t) (iblk m c 4 t) (iblk m c 5 t) (iblk m c 7 t) (iblk m c 6 t) (iblk m c 8 t)) (k0_pay5 (F := Ideal) (iblk m c 9 t)) (iblk m c 10 t) (iblk m c 11 t) (ix2 r u)
    = outP (args m c) (((cfg0.win 14).blk t).view.emb (ix2 r u))
  rw [emb_out14, outP_ix]
  refine (prob_at (iblk m c 1 t) (k0_pay4 (F := Ideal) (iblk m c 0 t) (iblk m c 2 t) (iblk m c 3 t) (iblk m c 4 t) (iblk m c 5 t) (iblk m c 7 t) (iblk m c 6 t) (iblk m c 8 t)) (k0_pay5 (F := Ideal) (iblk m c 9 t)) (iblk m c 10 t) (iblk m c 11 t) r u).trans ?_
  rw [hid_blk m c t r]
  unfold k0_pay5
  simp only [shapeCast_self, rd_h, rd_w1, rd_w2, rd_b2]
  rfl

/-! ## The result arrays -/

/-- An index is in point t's block of result 0 iff each coordinate is in the block's range on its axis. -/
theorem mem_blk12 (t : Fin cfg0.N) (i : S16384x512.Idx) :
    i ∈ ((cfg0.win 12).blk t).view.set ↔ ∀ a : Fin 2, win0_12.index t a * S1024x512.size a ≤ (i a).val ∧ (i a).val < win0_12.index t a * S1024x512.size a + S1024x512.size a := by
  show i ∈ ((View.whole main_v7_0).slice (win0_12.rect t)).set ↔ _
  rw [View.set_slice_whole, Rect.mem_set_unit]
  exact Iff.rfl

/-- Every index of result 0 is in some point's block: row i0 is in the block of point i0 / 1024. -/
theorem cover12 (i : S16384x512.Idx) : ∃ t : Fin cfg0.N, (cfg0.win 12).flush t = true ∧ i ∈ ((cfg0.win 12).blk t).view.set := by
  have hi0 : (i 0).val < 16384 := (i 0).isLt
  have hi1 : (i 1).val < 512 := (i 1).isLt
  have hlt : (i 0).val / 1024 < cfg0.N := Nat.lt_of_lt_of_eq (by omega : (i 0).val / 1024 < 16) N_0.symm
  refine ⟨⟨(i 0).val / 1024, hlt⟩, flush0_12 _, ?_⟩
  rw [mem_blk12]
  obtain ⟨a0, b0, a1, b1, a2, b2, a3, b3, a4, b4, a12, b12, a13, b13, a14, b14⟩ := idx_moving ⟨(i 0).val / 1024, hlt⟩
  intro a
  match a with
  | ⟨0, _⟩ =>
    show win0_12.index ⟨(i 0).val / 1024, hlt⟩ (0 : Fin 2) * 1024 ≤ (i 0).val ∧ (i 0).val < win0_12.index ⟨(i 0).val / 1024, hlt⟩ (0 : Fin 2) * 1024 + 1024
    rw [a12]; show (i 0).val / 1024 * 1024 ≤ (i 0).val ∧ (i 0).val < (i 0).val / 1024 * 1024 + 1024; omega
  | ⟨1, _⟩ =>
    show win0_12.index ⟨(i 0).val / 1024, hlt⟩ (1 : Fin 2) * 512 ≤ (i 1).val ∧ (i 1).val < win0_12.index ⟨(i 0).val / 1024, hlt⟩ (1 : Fin 2) * 512 + 512
    rw [b12]; omega

/-- An index is in point t's block of result 1 iff each coordinate is in the block's range on its axis. -/
theorem mem_blk13 (t : Fin cfg0.N) (i : S16384x512.Idx) :
    i ∈ ((cfg0.win 13).blk t).view.set ↔ ∀ a : Fin 2, win0_13.index t a * S1024x512.size a ≤ (i a).val ∧ (i a).val < win0_13.index t a * S1024x512.size a + S1024x512.size a := by
  show i ∈ ((View.whole main_v7_1).slice (win0_13.rect t)).set ↔ _
  rw [View.set_slice_whole, Rect.mem_set_unit]
  exact Iff.rfl

/-- Every index of result 1 is in some point's block: row i0 is in the block of point i0 / 1024. -/
theorem cover13 (i : S16384x512.Idx) : ∃ t : Fin cfg0.N, (cfg0.win 13).flush t = true ∧ i ∈ ((cfg0.win 13).blk t).view.set := by
  have hi0 : (i 0).val < 16384 := (i 0).isLt
  have hi1 : (i 1).val < 512 := (i 1).isLt
  have hlt : (i 0).val / 1024 < cfg0.N := Nat.lt_of_lt_of_eq (by omega : (i 0).val / 1024 < 16) N_0.symm
  refine ⟨⟨(i 0).val / 1024, hlt⟩, flush0_13 _, ?_⟩
  rw [mem_blk13]
  obtain ⟨a0, b0, a1, b1, a2, b2, a3, b3, a4, b4, a12, b12, a13, b13, a14, b14⟩ := idx_moving ⟨(i 0).val / 1024, hlt⟩
  intro a
  match a with
  | ⟨0, _⟩ =>
    show win0_13.index ⟨(i 0).val / 1024, hlt⟩ (0 : Fin 2) * 1024 ≤ (i 0).val ∧ (i 0).val < win0_13.index ⟨(i 0).val / 1024, hlt⟩ (0 : Fin 2) * 1024 + 1024
    rw [a13]; show (i 0).val / 1024 * 1024 ≤ (i 0).val ∧ (i 0).val < (i 0).val / 1024 * 1024 + 1024; omega
  | ⟨1, _⟩ =>
    show win0_13.index ⟨(i 0).val / 1024, hlt⟩ (1 : Fin 2) * 512 ≤ (i 1).val ∧ (i 1).val < win0_13.index ⟨(i 0).val / 1024, hlt⟩ (1 : Fin 2) * 512 + 512
    rw [b13]; omega

/-- An index is in point t's block of result 2 iff each coordinate is in the block's range on its axis. -/
theorem mem_blk14 (t : Fin cfg0.N) (i : S16384x1.Idx) :
    i ∈ ((cfg0.win 14).blk t).view.set ↔ ∀ a : Fin 2, win0_14.index t a * S1024x1.size a ≤ (i a).val ∧ (i a).val < win0_14.index t a * S1024x1.size a + S1024x1.size a := by
  show i ∈ ((View.whole main_v7_2).slice (win0_14.rect t)).set ↔ _
  rw [View.set_slice_whole, Rect.mem_set_unit]
  exact Iff.rfl

/-- Every index of result 2 is in some point's block: row i0 is in the block of point i0 / 1024. -/
theorem cover14 (i : S16384x1.Idx) : ∃ t : Fin cfg0.N, (cfg0.win 14).flush t = true ∧ i ∈ ((cfg0.win 14).blk t).view.set := by
  have hi0 : (i 0).val < 16384 := (i 0).isLt
  have hi1 : (i 1).val < 1 := (i 1).isLt
  have hlt : (i 0).val / 1024 < cfg0.N := Nat.lt_of_lt_of_eq (by omega : (i 0).val / 1024 < 16) N_0.symm
  refine ⟨⟨(i 0).val / 1024, hlt⟩, flush0_14 _, ?_⟩
  rw [mem_blk14]
  obtain ⟨a0, b0, a1, b1, a2, b2, a3, b3, a4, b4, a12, b12, a13, b13, a14, b14⟩ := idx_moving ⟨(i 0).val / 1024, hlt⟩
  intro a
  match a with
  | ⟨0, _⟩ =>
    show win0_14.index ⟨(i 0).val / 1024, hlt⟩ (0 : Fin 2) * 1024 ≤ (i 0).val ∧ (i 0).val < win0_14.index ⟨(i 0).val / 1024, hlt⟩ (0 : Fin 2) * 1024 + 1024
    rw [a14]; show (i 0).val / 1024 * 1024 ≤ (i 0).val ∧ (i 0).val < (i 0).val / 1024 * 1024 + 1024; omega
  | ⟨1, _⟩ =>
    show win0_14.index ⟨(i 0).val / 1024, hlt⟩ (1 : Fin 2) * 1 ≤ (i 1).val ∧ (i 1).val < win0_14.index ⟨(i 0).val / 1024, hlt⟩ (1 : Fin 2) * 1 + 1
    rw [b14]; omega

/-- The first result array ends as the new hidden state of the arguments. -/
theorem finalH (c : Dev nD) : (dats m 0 c).arrAt 12 cfg0.N = outH (args m c) :=
  (dats m 0 c).arrAt_eq_of_cover 12 (outH (args m c)) (fun t _ => flushedH m c t) cover12

/-- The second as the new cell state. -/
theorem finalC (c : Dev nD) : (dats m 0 c).arrAt 13 cfg0.N = outC (args m c) :=
  (dats m 0 c).arrAt_eq_of_cover 13 (outC (args m c)) (fun t _ => flushedC m c t) cover13

/-- The third as the read-out. -/
theorem finalP (c : Dev nD) : (dats m 0 c).arrAt 14 cfg0.N = outP (args m c) :=
  (dats m 0 c).arrAt_eq_of_cover 14 (outP (args m c)) (fun t _ => flushedP m c t) cover14

/-- The run: every weakly fair execution ends with the three results at the cell's functions of the arguments, and the
    arguments unchanged. -/
theorem run : θ_run defs (onTc (τ := τ) (main (F := Ideal))) ⟨m, fun _ => 0, ρ⟩ fun r => ∀ c : Dev nD,
      r.2.mem ((c : Thread nD τ).loc main_v7_0) = outH (args m c)
      ∧ r.2.mem ((c : Thread nD τ).loc main_v7_1) = outC (args m c)
      ∧ r.2.mem ((c : Thread nD τ).loc main_v7_2) = outP (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalH m c), (h c).2.1.trans (finalC m c),
      (h c).2.2.1.trans (finalP m c), (h c).2.2.2⟩)
    (ValueP.run_blocks m ρ)

end Cert.KernelArr

end
-- ==== Proof.LibFusedLinear.lean ====
/-
  A linear layer applied to two operands side by side. For row blocks a (R × A) and b (R × B), weights W (K × N) with
  K = A + B, and a bias row, the product of the row-wise concatenation [a | b] with W is the sum of the two partial
  products a · W[0:A, :] + b · W[A:K, :]: the sum over the contracted axis splits at A. On the extended reals this needs
  no finiteness, only that addition is commutative and associative.
-/
import Idealize.ShloMosaic.PureOps.Ideal
import Idealize.ShloMosaic.Lib.ValueIdx
import Idealize.ShloMosaic.Lib.Pipeline.Value
import Idealize.ShloMosaic.PureOps.Ideal.Laws
import proofs.«115608_j35150012350793_2_alg».proof.Proof.LibMatmul

noncomputable section

open scoped BigOperators

namespace Cert.Bridge.LibFusedLinear

open Idealize.ShloMosaic Idealize.ShloMosaic.ValueIdx Idealize.ShloMosaic.Pipeline Cert.Bridge

/-- A sum over `Fin K` with `K = A + B` splits into the first `A` terms and the last `B` terms. -/
theorem sum_split {α : Type} [AddCommMonoid α] {A B K : Nat} (h : A + B = K) (f : Fin K → α) :
    ∑ k : Fin K, f k = ∑ k : Fin A, f ⟨k.val, by omega⟩ + ∑ k : Fin B, f ⟨A + k.val, by omega⟩ := by
  subst h
  rw [Fin.sum_univ_add]
  rfl

variable {R A B K N : Nat}

/-- The fused layer at output index (p, q): a[p, :] · wa[:, q] + b[p, :] · wb[:, q] + bias[0, q]. -/
def linAt (a : (⟨2, ![R, A]⟩ : Shape).Idx → EReal) (b : (⟨2, ![R, B]⟩ : Shape).Idx → EReal)
    (wa : (⟨2, ![A, N]⟩ : Shape).Idx → EReal) (wb : (⟨2, ![B, N]⟩ : Shape).Idx → EReal)
    (bias : (⟨2, ![1, N]⟩ : Shape).Idx → EReal) (p : Fin R) (q : Fin N) : EReal :=
  (∑ k : Fin A, a (ix2 p k) * wa (ix2 k q)) + (∑ k : Fin B, b (ix2 p k) * wb (ix2 k q)) + bias (ix2 0 q)

/-- The contracted sum against the concatenation [a | b] is the sum of the two partial contracted sums, when `wa` and
    `wb` are the top `A` rows and the bottom `B` rows of `W`. -/
theorem concat_sum (h : A + B = K) (cat : (⟨2, ![R, K]⟩ : Shape).Idx → EReal)
    (a : (⟨2, ![R, A]⟩ : Shape).Idx → EReal) (b : (⟨2, ![R, B]⟩ : Shape).Idx → EReal)
    (W : (⟨2, ![K, N]⟩ : Shape).Idx → EReal)
    (wa : (⟨2, ![A, N]⟩ : Shape).Idx → EReal) (wb : (⟨2, ![B, N]⟩ : Shape).Idx → EReal) (p : Fin R) (q : Fin N)
    (hca : ∀ k : Fin A, cat (ix2 p ⟨k.val, by omega⟩) = a (ix2 p k))
    (hcb : ∀ k : Fin B, cat (ix2 p ⟨A + k.val, by omega⟩) = b (ix2 p k))
    (hwa : ∀ k : Fin A, wa (ix2 k q) = W (ix2 ⟨k.val, by omega⟩ q))
    (hwb : ∀ k : Fin B, wb (ix2 k q) = W (ix2 ⟨A + k.val, by omega⟩ q)) :
    ∑ k : Fin K, cat (ix2 p k) * W (ix2 k q)
      = (∑ k : Fin A, a (ix2 p k) * wa (ix2 k q)) + (∑ k : Fin B, b (ix2 p k) * wb (ix2 k q)) := by
  rw [sum_split h]
  refine congrArg₂ (· + ·) (Finset.sum_congr rfl fun k _ => ?_) (Finset.sum_congr rfl fun k _ => ?_)
  · rw [hca k, hwa k]
  · rw [hcb k, hwb k]

/-- The layer as the host computes it, read at (p, q): the product of the concatenation [a | b] with the whole weight
    matrix plus the bias broadcast along the rows, is the fused layer over the weight's top `A` rows and bottom `B` rows
    and the bias as a one-row matrix. -/
theorem concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (prec : Option ContractPrecision) (sched : HostSchedule) (p : Fin R) (q : Fin N) :
    addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)) (ix2 p q)
      = linAt a b (extractStridedSlice ⟨2, ![A, N]⟩ ![0, 0] W hs0) (extractStridedSlice ⟨2, ![B, N]⟩ ![A, 0] W hs1)
          (shapeCast ⟨2, ![1, N]⟩ bias hr) p q := by
  have hq : q.val < N := q.isLt
  -- the bias row, broadcast along the rows: first to one row, then to all
  have hk2 : ∀ d : Fin 2, ((ix2 (0 : Fin 1) q : (⟨2, ![1, N]⟩ : Shape).Idx) d).val
      = if (⟨2, ![1, N]⟩ : Shape).size d = 1 then 0 else ((ix2 p q : (⟨2, ![R, N]⟩ : Shape).Idx) ((![0, 1] : Fin 2 → Fin 2) d)).val := by
    intro d
    match d with
    | ⟨0, _⟩ => show (0 : ℕ) = if (1 : ℕ) = 1 then 0 else p.val; rw [if_pos rfl]
    | ⟨1, _⟩ =>
      show q.val = if N = 1 then 0 else q.val
      split
      · omega
      · rfl
  have hk1 : ∀ d : Fin 1, ((ix1 q : (⟨1, ![N]⟩ : Shape).Idx) d).val
      = if (⟨1, ![N]⟩ : Shape).size d = 1 then 0 else ((ix2 (0 : Fin 1) q : (⟨2, ![1, N]⟩ : Shape).Idx) ((![1] : Fin 1 → Fin 2) d)).val := by
    intro d
    match d with
    | ⟨0, _⟩ =>
      show q.val = if N = 1 then 0 else q.val
      split
      · omega
      · rfl
  have hbias : broadcastInDim ⟨2, ![R, N]⟩ ![0, 1] hb2 (broadcastInDim ⟨2, ![1, N]⟩ ![1] hb1 bias) (ix2 p q)
      = shapeCast ⟨2, ![1, N]⟩ bias hr (ix2 0 q) :=
    (broadcastInDim_apply ![0, 1] hb2 _ (ix2 p q) (ix2 0 q) hk2).trans
      ((broadcastInDim_apply ![1] hb1 bias (ix2 0 q) (ix1 q) hk1).trans
        (shapeCast_apply bias hr (ix2 0 q) (ix1 q) (by
          rw [Shape.rowMajor_val_one, Shape.rowMajor_val_two]; show q.val = 0 * N + q.val; omega)).symm)
  rw [addf_apply, LibMatmul.dotGeneral_apply, hbias]
  unfold linAt
  refine congrArg₂ (· + ·) ?_ rfl
  refine concat_sum h _ a b W _ _ p q (fun k => ?_) (fun k => ?_) (fun k => ?_) (fun k => ?_)
  · exact concatenate_pair_apply_left 1 a b hc _ rfl (ix2 p k)
      (fun d => by match d with | ⟨0, _⟩ => rfl | ⟨1, _⟩ => rfl)
  · exact concatenate_pair_apply_right 1 a b hc _ rfl rfl (ix2 p k)
      (fun d hd => by match d with | ⟨0, _⟩ => rfl | ⟨1, _⟩ => exact absurd rfl hd)
      (Nat.add_comm _ _)
  · exact extractStridedSlice_apply ![0, 0] W hs0 (ix2 k q) (ix2 ⟨k.val, by omega⟩ q)
      (fun d => by match d with | ⟨0, _⟩ => exact (Nat.zero_add _).symm | ⟨1, _⟩ => exact (Nat.zero_add _).symm)
  · exact extractStridedSlice_apply ![A, 0] W hs1 (ix2 k q) (ix2 ⟨A + k.val, by omega⟩ q)
      (fun d => by match d with | ⟨0, _⟩ => rfl | ⟨1, _⟩ => exact (Nat.zero_add _).symm)

/-- The same layer followed by the host's clamp at zero (the maximum with a zero broadcast from a scalar). -/
theorem relu_concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (hz : (⟨0, ![]⟩ : Shape).BroadcastsInDim ⟨2, ![R, N]⟩ ![])
    (prec : Option ContractPrecision) (sched : HostSchedule) (p : Fin R) (q : Fin N) :
    maximumf (addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)))
      (broadcastInDim ⟨2, ![R, N]⟩ ![] hz (constant (F := Ideal) ⟨0, ![]⟩ .f32 0x00000000#32)) (ix2 p q)
      = max (linAt a b (extractStridedSlice ⟨2, ![A, N]⟩ ![0, 0] W hs0) (extractStridedSlice ⟨2, ![B, N]⟩ ![A, 0] W hs1)
          (shapeCast ⟨2, ![1, N]⟩ bias hr) p q) (Ideal.ofBits .f32 0x00000000#32) := by
  rw [maximumf_apply]
  refine congrArg₂ max (concat_dot_bias_at h a b W bias hc hb1 hb2 hs0 hs1 hr prec sched p q) ?_
  exact broadcastInDim_apply ![] hz _ (ix2 p q) ix0 (fun d => d.elim0)

end Cert.Bridge.LibFusedLinear

end
-- ==== Proof.RefValue.lean ====
/-
  The reference program's three results, read at an index, are the cell of Spec.lean.

  Row b of the gate pre-activations is read off the program one operation at a time: the scaled input row times the
  transposed input weights, plus the first bias, plus the previous hidden row times the transposed recurrent weights,
  plus the second bias. The four slices of width 512 are the four column blocks; the program spells the logistic function
  as 1 / (1 + exp (-x)) with the f32 word of 1.0, which is the logistic function of the extended reals. That gives the new
  cell row c' = sigma(f) * c + sigma(i) * tanh(g) and the new hidden row h' = sigma(o) * tanh(c').

  The read-out contracts the concatenation [h | h'] (1024 columns) against one row of 1024 weights. The one law used
  beyond reading operations at an index is that this sum splits at the join:
      sum_{k < 1024} cat[b, k] * w[k] = sum_{k < 512} h[b, k] * w[k] + sum_{k < 512} h'[b, k] * w[512 + k].
  Addition of extended reals is commutative and associative, so the split needs no finiteness of any term.
-/
import proofs.«115608_j35150012350793_2_alg».proof.Proof.Gen.ReferenceIdeal.Read
import proofs.«115608_j35150012350793_2_alg».proof.Proof.Spec
import proofs.«115608_j35150012350793_2_alg».proof.Proof.LibFusedLinear

noncomputable section

open scoped BigOperators

namespace Cert.RefValue

open Idealize.ShloMosaic Idealize.ShloMosaic.ValueIdx Idealize.ShloMosaic.Pipeline
open Cert.ReferenceIdeal Cert.ReferenceIdeal.Read

variable (x0 x1 x2 x3 : (⟨S16384x512, .f32⟩ : BufTy).Contents (Elt Ideal))
  (x4 : (⟨S16384x1, .f32⟩ : BufTy).Contents (Elt Ideal))
  (x5 x6 : (⟨S2048x512, .f32⟩ : BufTy).Contents (Elt Ideal))
  (x7 x8 : (⟨S2048, .f32⟩ : BufTy).Contents (Elt Ideal))
  (x9 : (⟨S1x1024, .f32⟩ : BufTy).Contents (Elt Ideal))
  (x10 : (⟨S1, .f32⟩ : BufTy).Contents (Elt Ideal))

/-! ## Index bookkeeping for the gate row -/

theorem l3_ix (b : Fin 16384) (j : Fin 2048) (k : Fin 512) : lidx_main_v3 (ix2 b j) k = ix2 b k :=
  funext fun a => match a with | ⟨0, _⟩ => rfl | ⟨1, _⟩ => rfl
theorem r3_ix (b : Fin 16384) (j : Fin 2048) (k : Fin 512) : idx_main_v2 (ridx_main_v3 (ix2 b j) k) = ix2 j k :=
  funext fun a => match a with | ⟨0, _⟩ => rfl | ⟨1, _⟩ => rfl
theorem p0_ix (b : Fin 16384) (k : Fin 512) : idx_main_v0 (ix2 b k) = ix2 b (0 : Fin 1) :=
  funext fun a => match a with | ⟨0, _⟩ => rfl | ⟨1, _⟩ => rfl
theorem l8_ix (b : Fin 16384) (j : Fin 2048) (k : Fin 512) : lidx_main_v8 (ix2 b j) k = ix2 b k :=
  funext fun a => match a with | ⟨0, _⟩ => rfl | ⟨1, _⟩ => rfl
theorem r8_ix (b : Fin 16384) (j : Fin 2048) (k : Fin 512) : idx_main_v7 (ridx_main_v8 (ix2 b j) k) = ix2 j k :=
  funext fun a => match a with | ⟨0, _⟩ => rfl | ⟨1, _⟩ => rfl
theorem b5_ix (b : Fin 16384) (j : Fin 2048) : idx_main_v4 (idx_main_v5 (ix2 b j)) = ix1 j :=
  funext fun a => match a with | ⟨0, _⟩ => rfl
theorem b11_ix (b : Fin 16384) (j : Fin 2048) : idx_main_v10 (idx_main_v11 (ix2 b j)) = ix1 j :=
  funext fun a => match a with | ⟨0, _⟩ => rfl

/-- The gate pre-activations, row b, column j. -/
theorem gate_row (b : Fin 16384) (j : Fin 2048) :
    val_main_v12 (F := Ideal) x0 x2 x4 x5 x6 x7 x8 (ix2 b j)
      = Cell.gate (x4 (ix2 b (0 : Fin 1))) (fun k => x0 (ix2 b k)) (fun k => x2 (ix2 b k))
          (fun k j => x5 (ix2 j k)) (fun k j => x6 (ix2 j k)) (fun j => x7 (ix1 j)) (fun j => x8 (ix1 j)) j := by
  rw [val_main_v12_apply, val_main_v9_apply, val_main_v6_apply, val_main_v3_apply, val_main_v8_apply,
    val_main_v5_apply, val_main_v4_apply, val_main_v11_apply, val_main_v10_apply, b5_ix, b11_ix]
  simp only [val_main_v1_apply, val_main_v0_apply, val_main_v2_apply, val_main_v7_apply, l3_ix, r3_ix, p0_ix, l8_ix, r8_ix]
  rfl

/-! ## The four column blocks -/

theorem s13_ix (b : Fin 16384) (q : Fin 512) : idx_main_v13 (ix2 b q) = ix2 b (Cell.colI q) :=
  funext fun a => match a with | ⟨0, _⟩ => rfl | ⟨1, _⟩ => rfl
theorem s14_ix (b : Fin 16384) (q : Fin 512) : idx_main_v14 (ix2 b q) = ix2 b (Cell.colF q) :=
  funext fun a => match a with | ⟨0, _⟩ => rfl | ⟨1, _⟩ => Fin.ext (Nat.add_comm _ _)
theorem s15_ix (b : Fin 16384) (q : Fin 512) : idx_main_v15 (ix2 b q) = ix2 b (Cell.colG q) :=
  funext fun a => match a with | ⟨0, _⟩ => rfl | ⟨1, _⟩ => Fin.ext (Nat.add_comm _ _)
theorem s16_ix (b : Fin 16384) (q : Fin 512) : idx_main_v16 (ix2 b q) = ix2 b (Cell.colO q) :=
  funext fun a => match a with | ⟨0, _⟩ => rfl | ⟨1, _⟩ => Fin.ext (Nat.add_comm _ _)

/-- The input gate: the logistic function of the first column block. -/
theorem sig_i (b : Fin 16384) (q : Fin 512) :
    val_main_v22 (F := Ideal) x0 x2 x4 x5 x6 x7 x8 (ix2 b q)
      = Ideal.logistic (val_main_v12 (F := Ideal) x0 x2 x4 x5 x6 x7 x8 (ix2 b (Cell.colI q))) := by
  rw [val_main_v22_apply, val_main_v21_apply, val_main_cst_0_apply, val_main_v20_apply, val_main_v19_apply,
    val_main_cst_apply, val_main_v18_apply, val_main_v17_apply, val_main_v13_apply, s13_ix]
  exact Cell.logistic_spelt _

/-- The forget gate: the logistic function of the second column block. -/
theorem sig_f (b : Fin 16384) (q : Fin 512) :
    val_main_v28 (F := Ideal) x0 x2 x4 x5 x6 x7 x8 (ix2 b q)
      = Ideal.logistic (val_main_v12 (F := Ideal) x0 x2 x4 x5 x6 x7 x8 (ix2 b (Cell.colF q))) := by
  rw [val_main_v28_apply, val_main_v27_apply, val_main_cst_2_apply, val_main_v26_apply, val_main_v25_apply,
    val_main_cst_1_apply, val_main_v24_apply, val_main_v23_apply, val_main_v14_apply, s14_ix]
  exact Cell.logistic_spelt _

/-- The output gate: the logistic function of the fourth column block. -/
theorem sig_o (b : Fin 16384) (q : Fin 512) :
    val_main_v35 (F := Ideal) x0 x2 x4 x5 x6 x7 x8 (ix2 b q)
      = Ideal.logistic (val_main_v12 (F := Ideal) x0 x2 x4 x5 x6 x7 x8 (ix2 b (Cell.colO q))) := by
  rw [val_main_v35_apply, val_main_v34_apply, val_main_cst_4_apply, val_main_v33_apply, val_main_v32_apply,
    val_main_cst_3_apply, val_main_v31_apply, val_main_v30_apply, val_main_v16_apply, s16_ix]
  exact Cell.logistic_spelt _

/-- The candidate: the hyperbolic tangent of the third column block. -/
theorem tanh_g (b : Fin 16384) (q : Fin 512) :
    val_main_v29 (F := Ideal) x0 x2 x4 x5 x6 x7 x8 (ix2 b q)
      = Ideal.tanh (val_main_v12 (F := Ideal) x0 x2 x4 x5 x6 x7 x8 (ix2 b (Cell.colG q))) := by
  rw [val_main_v29_apply, val_main_v15_apply, s15_ix]
  rfl

/-! ## The new cell and hidden rows -/

/-- Row b's gate pre-activations, as the argument arrays give them. -/
abbrev gateRow (b : Fin 16384) : Fin 2048 → EReal :=
  Cell.gate (x4 (ix2 b (0 : Fin 1))) (fun k => x0 (ix2 b k)) (fun k => x2 (ix2 b k))
    (fun k j => x5 (ix2 j k)) (fun k j => x6 (ix2 j k)) (fun j => x7 (ix1 j)) (fun j => x8 (ix1 j))

theorem cell_pt (b : Fin 16384) (q : Fin 512) :
    val_main_v38 (F := Ideal) x0 x2 x3 x4 x5 x6 x7 x8 (ix2 b q)
      = Cell.cellNew (gateRow x0 x2 x4 x5 x6 x7 x8 b) (fun q => x3 (ix2 b q)) q := by
  rw [val_main_v38_apply, val_main_v36_apply, val_main_v37_apply, sig_f, sig_i, tanh_g, gate_row, gate_row, gate_row]
  rfl

theorem hid_pt (b : Fin 16384) (q : Fin 512) :
    val_main_v40 (F := Ideal) x0 x2 x3 x4 x5 x6 x7 x8 (ix2 b q)
      = Cell.hidNew (gateRow x0 x2 x4 x5 x6 x7 x8 b) (fun q => x3 (ix2 b q)) q := by
  rw [val_main_v40_apply, val_main_v39_apply, sig_o, cell_pt, gate_row]
  rfl

theorem cell_eq :
    val_main_v38 (F := Ideal) x0 x2 x3 x4 x5 x6 x7 x8 = Cell.outC ⟨x0, x1, x2, x3, x4, x5, x6, x7, x8, x9, x10⟩ := by
  funext i
  obtain ⟨b, q, rfl⟩ : ∃ (b : Fin 16384) (q : Fin 512), i = ix2 b q :=
    ⟨i 0, i 1, eq_ix2 (n0 := 16384) (n1 := 512) i⟩
  exact cell_pt x0 x2 x3 x4 x5 x6 x7 x8 b q

theorem hid_eq :
    val_main_v40 (F := Ideal) x0 x2 x3 x4 x5 x6 x7 x8 = Cell.outH ⟨x0, x1, x2, x3, x4, x5, x6, x7, x8, x9, x10⟩ := by
  funext i
  obtain ⟨b, q, rfl⟩ : ∃ (b : Fin 16384) (q : Fin 512), i = ix2 b q :=
    ⟨i 0, i 1, eq_ix2 (n0 := 16384) (n1 := 512) i⟩
  exact hid_pt x0 x2 x3 x4 x5 x6 x7 x8 b q

/-! ## The read-out -/

theorem l43_ix (b : Fin 16384) (k : Fin 1024) : lidx_main_v43 (ix2 b (0 : Fin 1)) k = ix2 b k :=
  funext fun a => match a with | ⟨0, _⟩ => rfl | ⟨1, _⟩ => rfl
theorem r43_ix (b : Fin 16384) (k : Fin 1024) :
    idx_main_v42 (ridx_main_v43 (ix2 b (0 : Fin 1)) k) = ix2 (0 : Fin 1) k :=
  funext fun a => match a with | ⟨0, _⟩ => rfl | ⟨1, _⟩ => rfl
theorem b45_ix (b : Fin 16384) : idx_main_v44 (idx_main_v45 (ix2 b (0 : Fin 1))) = ix1 (0 : Fin 1) :=
  funext fun a => match a with | ⟨0, _⟩ => rfl

/-- The first 512 columns of the concatenation are the row h. -/
theorem cat_left (b : Fin 16384) (k : Fin 512) :
    val_main_v41 (F := Ideal) x0 x1 x2 x3 x4 x5 x6 x7 x8 (ix2 b (⟨k.val, by omega⟩ : Fin 1024)) = x1 (ix2 b k) := by
  unfold val_main_v41
  generalize val_main_v40 (F := Ideal) x0 x2 x3 x4 x5 x6 x7 x8 = y
  exact concatenate_pair_apply_left 1 x1 y Gen.concatenates_S16384x512_S16384x512_S16384x1024_d1 _ rfl (ix2 b k)
    (fun d => by match d with | ⟨0, _⟩ => rfl | ⟨1, _⟩ => rfl)

/-- The last 512 columns of the concatenation are the new hidden row. -/
theorem cat_right (b : Fin 16384) (k : Fin 512) :
    val_main_v41 (F := Ideal) x0 x1 x2 x3 x4 x5 x6 x7 x8 (ix2 b (⟨512 + k.val, by omega⟩ : Fin 1024))
      = val_main_v40 (F := Ideal) x0 x2 x3 x4 x5 x6 x7 x8 (ix2 b k) := by
  unfold val_main_v41
  generalize val_main_v40 (F := Ideal) x0 x2 x3 x4 x5 x6 x7 x8 = y
  exact concatenate_pair_apply_right 1 x1 y Gen.concatenates_S16384x512_S16384x512_S16384x1024_d1 _ rfl rfl (ix2 b k)
    (fun d hd => by match d with | ⟨0, _⟩ => rfl | ⟨1, _⟩ => exact absurd rfl hd)
    (Nat.add_comm _ _)

/-- The 1024-term contraction against the concatenation splits at the join into the part on h and the part on the
    new hidden row. Addition of extended reals is commutative and associative, so no finiteness is needed. -/
theorem logit_sum (b : Fin 16384) :
    val_main_v43 (F := Ideal) x0 x1 x2 x3 x4 x5 x6 x7 x8 x9 (ix2 b (0 : Fin 1))
      = (∑ k : Fin 512, x1 (ix2 b k) * x9 (ix2 (0 : Fin 1) (⟨k.val, by omega⟩ : Fin 1024)))
        + ∑ k : Fin 512, Cell.hidNew (gateRow x0 x2 x4 x5 x6 x7 x8 b) (fun q => x3 (ix2 b q)) k
            * x9 (ix2 (0 : Fin 1) (⟨512 + k.val, by omega⟩ : Fin 1024)) := by
  rw [val_main_v43_apply]
  simp only [val_main_v42_apply, l43_ix, r43_ix]
  rw [Cert.Bridge.LibFusedLinear.sum_split (A := 512) (B := 512) (K := 1024) rfl]
  refine congrArg₂ (· + ·) (Finset.sum_congr rfl fun k _ => ?_) (Finset.sum_congr rfl fun k _ => ?_)
  · rw [cat_left]
  · rw [cat_right, hid_pt]

theorem prob_pt (b : Fin 16384) :
    val_main_v52 (F := Ideal) x0 x1 x2 x3 x4 x5 x6 x7 x8 x9 x10 (ix2 b (0 : Fin 1))
      = Cell.probNew (fun k => x1 (ix2 b k)) (Cell.hidNew (gateRow x0 x2 x4 x5 x6 x7 x8 b) (fun q => x3 (ix2 b q)))
          (fun k => x9 (ix2 (0 : Fin 1) (⟨k.val, by omega⟩ : Fin 1024)))
          (fun k => x9 (ix2 (0 : Fin 1) (⟨512 + k.val, by omega⟩ : Fin 1024))) (x10 (ix1 (0 : Fin 1))) := by
  rw [val_main_v52_apply, val_main_v51_apply, val_main_cst_6_apply, val_main_v50_apply, val_main_v49_apply,
    val_main_cst_5_apply, val_main_v48_apply, val_main_v47_apply, val_main_v46_apply, val_main_v45_apply,
    val_main_v44_apply, b45_ix, logit_sum]
  exact Cell.logistic_spelt _

theorem prob_eq :
    val_main_v52 (F := Ideal) x0 x1 x2 x3 x4 x5 x6 x7 x8 x9 x10
      = Cell.outP ⟨x0, x1, x2, x3, x4, x5, x6, x7, x8, x9, x10⟩ := by
  funext i
  obtain ⟨b, u, rfl⟩ : ∃ (b : Fin 16384) (u : Fin 1), i = ix2 b u :=
    ⟨i 0, i 1, eq_ix2 (n0 := 16384) (n1 := 1) i⟩
  obtain rfl : u = 0 := Fin.eq_zero u
  exact prob_pt x0 x1 x2 x3 x4 x5 x6 x7 x8 x9 x10 b

end Cert.RefValue

end
-- ==== Proof.lean ====
/-
  An LSTM-style cell with a scalar read-out, computed by one gridded kernel, against the same cell written with array
  operations: at exact arithmetic on the extended reals the two programs return the same three arrays.

  Both compute, per batch row, the gate row ((x_scaled . W_ih^T + b_ih) + h_prev . W_hh^T) + b_hh with the same
  association of the four terms, the same cell update c' = sigma(f) c + sigma(i) tanh(g), h' = sigma(o) tanh(c'), and a
  read-out p' = sigma(logit). They differ in three ways, none of which changes a value on the extended reals. The
  kernel works on blocks of 1024 rows, one grid point per block, and the blocks tile the arrays. The kernel applies
  the logistic function as one operation where the reference writes 1 / (1 + exp (-x)); these are one function,
  infinities included. And the reference contracts the concatenation [h | h'] against the 1024 read-out weights in one
  sum, where the kernel takes two lane sums of 512 terms against the two halves of the weights: the sum splits at the
  join because addition of extended reals is commutative and associative, so no input need be finite for it. The
  precondition is therefore not used by the value claim.

  The three frames are the generated ones (the reference's is its generated run with the results dropped); the
  idealization rewrote nothing, so there is nothing to preserve; the kernel's results as functions of the arguments are
  Proof/KernelArr.lean, the reference's Proof/RefValue.lean, both stated against Proof/Spec.lean.
-/
import proofs.«115608_j35150012350793_2_alg».proof.Defs
import proofs.«115608_j35150012350793_2_alg».proof.Proof.Gen.Kernel
import proofs.«115608_j35150012350793_2_alg».proof.Proof.Gen.Kernel.Frame
import proofs.«115608_j35150012350793_2_alg».proof.Proof.Gen.KernelIdeal
import proofs.«115608_j35150012350793_2_alg».proof.Proof.Gen.KernelIdeal.Frame
import proofs.«115608_j35150012350793_2_alg».proof.Proof.Gen.ReferenceIdeal
import proofs.«115608_j35150012350793_2_alg».proof.Proof.Gen.Pre_finite_inputs
import proofs.«115608_j35150012350793_2_alg».proof.Proof.Gen.ReferenceIdeal.Run
import proofs.«115608_j35150012350793_2_alg».proof.Proof.Gen.ReferenceIdeal.Read
import proofs.«115608_j35150012350793_2_alg».proof.Proof.Spec
import proofs.«115608_j35150012350793_2_alg».proof.Proof.KernelArr
import proofs.«115608_j35150012350793_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- The reference's arguments, bundled, are the kernel's when the two memories agree on the arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7),
      m' ((c.tc : Thread Cert.ReferenceIdeal.nD Cert.ReferenceIdeal.τ).loc Cert.ReferenceIdeal.main_arg8),
      m' ((c.tc : Thread Cert.ReferenceIdeal.nD Cert.ReferenceIdeal.τ).loc Cert.ReferenceIdeal.main_arg9),
      m' ((c.tc : Thread Cert.ReferenceIdeal.nD Cert.ReferenceIdeal.τ).loc Cert.ReferenceIdeal.main_arg10)⟩ : Cert.Cell.Args)
      = Cert.KernelArr.args m c := by
  rw [h0, h1, h2, h3, h4, h5, h6, h7, h8, h9, h10]
  rfl

/-- On the extended reals the kernel and the reference, from memories that agree on the arguments, both run and end with
    the same three arrays: the new hidden state, the new cell state and the read-out of the arguments. -/
theorem algebraic : Cert.algebraic_KernelIdeal_ReferenceIdeal := by
  intro m ρ m' ρ' _ hagree
  refine ⟨fun c => Cert.Cell.outH (Cert.KernelArr.args m c), fun c => Cert.Cell.outC (Cert.KernelArr.args m c),
    fun c => Cert.Cell.outP (Cert.KernelArr.args m c), Cert.KernelArr.run m ρ, ?_⟩
  refine (θ_run Cert.ReferenceIdeal.defs _ _).mono (fun _ h c => ?_) (Cert.ReferenceIdeal.Value.run (F := Ideal) m' ρ')
  have hA := args_agree m m' c ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2)
  refine ⟨?_, ?_, ?_, (h c).2.2.2⟩
  · refine (h c).1.trans ((Cert.ReferenceIdeal.Read.val_main_v40_eq m' c).trans ?_)
    exact (Cert.RefValue.hid_eq _ (m' ((c.tc : Thread Cert.ReferenceIdeal.nD Cert.ReferenceIdeal.τ).loc Cert.ReferenceIdeal.main_arg1)) _ _ _ _ _ _ _ (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans (congrArg Cert.Cell.outH hA)
  · refine (h c).2.1.trans ((Cert.ReferenceIdeal.Read.val_main_v38_eq _ _ _ _ _ _ _ _).trans ?_)
    exact (Cert.RefValue.cell_eq _ (m' ((c.tc : Thread Cert.ReferenceIdeal.nD Cert.ReferenceIdeal.τ).loc Cert.ReferenceIdeal.main_arg1)) _ _ _ _ _ _ _ (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans (congrArg Cert.Cell.outC hA)
  · refine (h c).2.2.1.trans ((Cert.ReferenceIdeal.Read.val_main_v52_eq m' c).trans ?_)
    exact (Cert.RefValue.prob_eq _ _ _ _ _ _ _ _ _ _ _).trans (congrArg Cert.Cell.outP hA)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
